-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x5000 : Shape := ⟨2, ![16384, 5000]⟩
abbrev S16384 : Shape := ⟨1, ![16384]⟩
abbrev S_ : Shape := ⟨0, ![]⟩

class Facts : Prop where
  bcast_S_S16384x5000 : S_.BroadcastsInDim S16384x5000 (![] : Fin 0 → Fin S16384x5000.rank)
  reducesTo_S16384x5000_S_d0_1 : S16384x5000.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x5000 .f32) (main_arg1 : IVec S16384x5000 32) (main_arg2 : FVec F S16384 .f32) : IVec S_ 1 :=
  let main_v0 : FVec F S16384x5000 .f32 := Host.absf main_arg0
  let main_cst : FVec F S_ .f32 := constant S_ .f32 0x7F800000#32
  let main_v1 : FVec F S16384x5000 .f32 := broadcastInDim S16384x5000 ![] bcast_S_S16384x5000 main_cst
  let main_v2 : IVec S16384x5000 1 := cmpf .olt main_v0 main_v1
  let main_c : IVec S_ 1 := constantI S_ 1 1#1
  let main_v3 : IVec S_ 1 := (fun x v => Host.reduce IntOp.andi x v reducesTo_S16384x5000_S_d0_1 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  main_v8
-- ==== Kernel.lean ====
abbrev S16384x5000 : Shape := ⟨2, ![16384, 5000]⟩
abbrev S16384 : Shape := ⟨1, ![16384]⟩
abbrev S16384x1 : Shape := ⟨2, ![16384, 1]⟩
abbrev S128x5000 : Shape := ⟨2, ![128, 5000]⟩
abbrev S128x1 : Shape := ⟨2, ![128, 1]⟩
abbrev S128 : Shape := ⟨1, ![128]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S16384x5000, .f32⟩
  | .hbm, ⟨1, _⟩ => ⟨S16384x5000, .i32⟩
  | .hbm, ⟨2, _⟩ => ⟨S16384, .f32⟩
  | .hbm, ⟨3, _⟩ => ⟨S16384x1, .f32⟩
  | .hbm, ⟨4, _⟩ => ⟨S16384x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S128x5000, .f32⟩
  | .local _ .vmem, ⟨1, _⟩ => ⟨S128x5000, .f32⟩
  | .local _ .vmem, ⟨2, _⟩ => ⟨S128x5000, .i32⟩
  | .local _ .vmem, ⟨3, _⟩ => ⟨S128x5000, .i32⟩
  | .local _ .vmem, ⟨4, _⟩ => ⟨S128x1, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | _, _ => ⟨S16384x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16384_S16384x1 : S16384.ShapeCasts S16384x1
  inb_S128x5000_S128x5000_0_0 : ∀ a, (![0, 0] : Fin 2 → Nat) a + S128x5000.size a ≤ S128x5000.size a
  h_S128x5000 : 0 < S128x5000.numel
  reduces_S128x5000_S128 : S128x5000.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  reducesTo_S16384x1_S_d0_1 : S16384x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x5000.size a ≤ S16384x5000.size a
  hwx0_0 : ∀ i : grid0.Coords, EltTy.bits .f32 = 32 ∨ (Rect.block (s := S16384x5000) S128x5000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x5000.size a ≤ S16384x5000.size a
  hwx0_1 : ∀ i : grid0.Coords, EltTy.bits .i32 = 32 ∨ (Rect.block (s := S16384x5000) S128x5000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S16384x1.size a
  hwx0_2 : ∀ i : grid0.Coords, EltTy.bits .f32 = 32 ∨ (Rect.block (s := S16384x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S16384x1.size a
  hwx0_3 : ∀ i : grid0.Coords, EltTy.bits .f32 = 32 ∨ (Rect.block (s := S16384x1) S128x1.size (cc0_transform_3 i) (hinb0_3 i)).WholeWords (EltTy.packing .f32)

variable [Facts₀]

abbrev win0_0 : Pipeline.Window sig grid0 :=
  Pipeline.Window.ofSpec (Memref.whole main_arg0) S128x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x5000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x5000 : Shape := ⟨2, ![16384, 5000]⟩
abbrev S16384 : Shape := ⟨1, ![16384]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S16384x5000, .f32⟩
  | .hbm, ⟨1, _⟩ => ⟨S16384x5000, .i32⟩
  | .hbm, ⟨2, _⟩ => ⟨S16384, .f32⟩
  | .hbm, ⟨3, _⟩ => ⟨S16384x5000, .f32⟩
  | .hbm, ⟨4, _⟩ => ⟨S16384x5000, .f32⟩
  | .hbm, ⟨5, _⟩ => ⟨S_, .f32⟩
  | .hbm, ⟨6, _⟩ => ⟨S16384x5000, .f32⟩
  | .hbm, ⟨7, _⟩ => ⟨S16384x5000, .f32⟩
  | .hbm, ⟨8, _⟩ => ⟨S_, .f32⟩
  | .hbm, ⟨9, _⟩ => ⟨S16384x5000, .f32⟩
  | .hbm, ⟨10, _⟩ => ⟨S16384x5000, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16384x5000, .f32⟩
  | .hbm, ⟨15, _⟩ => ⟨S16384x5000, .f32⟩
  | .hbm, ⟨16, _⟩ => ⟨S_, .f32⟩
  | .hbm, ⟨17, _⟩ => ⟨S16384x5000, .f32⟩
  | .hbm, ⟨18, _⟩ => ⟨S16384x5000, .f32⟩
  | .hbm, ⟨19, _⟩ => ⟨S16384x5000, .f32⟩
  | .hbm, ⟨20, _⟩ => ⟨S16384x5000, .f32⟩
  | .hbm, ⟨21, _⟩ => ⟨S_, .f32⟩
  | .hbm, ⟨22, _⟩ => ⟨S16384x5000, .f32⟩
  | .hbm, ⟨23, _⟩ => ⟨S16384x5000, .i1⟩
  | .hbm, ⟨24, _⟩ => ⟨S_, .f32⟩
  | .hbm, ⟨25, _⟩ => ⟨S_, .f32⟩
  | .hbm, ⟨26, _⟩ => ⟨S16384x5000, .f32⟩
  | .hbm, ⟨27, _⟩ => ⟨S16384x5000, .f32⟩
  | .hbm, ⟨28, _⟩ => ⟨S_, .f32⟩
  | .hbm, ⟨29, _⟩ => ⟨S16384, .f32⟩
  | .hbm, ⟨30, _⟩ => ⟨S_, .i1⟩
  | .hbm, ⟨31, _⟩ => ⟨S16384, .i1⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S16384, .f32⟩
  | .hbm, ⟨36, _⟩ => ⟨S16384, .f32⟩
  | .hbm, ⟨37, _⟩ => ⟨S16384, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S16384x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v11 : Ref sig .tc := ⟨.hbm, 27, rfl⟩
abbrev main_cst_5 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_cst_6 : Ref sig .tc := ⟨.hbm, 33, rfl⟩
abbrev main_call2_v0 : Ref sig .tc := ⟨.hbm, 34, rfl⟩
abbrev main_call2_v1 : Ref sig .tc := ⟨.hbm, 35, rfl⟩
abbrev main_v15 : Ref sig .tc := ⟨.hbm, 36, rfl⟩
abbrev main_v16 : Ref sig .tc := ⟨.hbm, 37, rfl⟩
abbrev main_cst_7 : Ref sig .tc := ⟨.hbm, 38, rfl⟩
abbrev main_v17 : Ref sig .tc := ⟨.hbm, 39, rfl⟩
abbrev main_cst_8 : Ref sig .tc := ⟨.hbm, 40, rfl⟩
abbrev main_v18 : Ref sig .tc := ⟨.hbm, 41, rfl⟩

abbrev nD : Nat := 1
abbrev τ : Topo := Topo.v7x

variable {F : FTy → Type} [FloatOps F]

class Facts₀ : Prop where
  bcast_S_S16384x5000 : S_.BroadcastsInDim S16384x5000 (![] : Fin 0 → Fin S16384x5000.rank)
  reducesTo_S16384x5000_S16384_d1 : S16384x5000.ReducesTo [1] S16384
  h_S_ : 0 < S_.numel
  bcast_S_S16384 : S_.BroadcastsInDim S16384 (![] : Fin 0 → Fin S16384.rank)
  reducesTo_S16384_S_d0 : S16384.ReducesTo [0] S_

variable [Facts₀]

class Facts : Prop extends Facts₀ where

variable [Facts]
-- ==== Proof.LossSpec.lean ====
/-
  The mathematics of the row loss, on the extended reals, free of any program.

  For a row of scores `x k` and integer labels `t k` the loss is built from
  `logp x = log (min hi (max lo (1 / (1 + e^(-x)))))`, the logarithm of the sigmoid clipped to `[lo, hi]` with
  `0 < lo ≤ hi < 1`; from the masked row, `logp (x k)` where the label is positive and the large negative number
  `fill` elsewhere; and from that row's maximum `M` (taken from `-∞`). One program answers `-M` when SOME label of
  the row is positive and `0` otherwise; the other answers `0 - M` when `M` exceeds the threshold `thr = fill / 2`
  and `0` otherwise. They agree because every `logp` is far above `thr` (a clipped sigmoid is at least `lo`, and
  `log lo ≥ 1 - 1 / lo > thr`), while `fill` and `-∞` are not above it: the maximum exceeds `thr` exactly when
  a positive label contributed a `logp`.
-/
import Idealize.ShloMosaic.PureOps.Ideal

noncomputable section

namespace Cert.RowLoss

open Idealize.ShloMosaic

/-! ## The float patterns, as the numbers they denote -/

/-- The lower clip bound, the float nearest `1e-6`: `8796093 / 2^43`. -/
theorem lo_eq : Ideal.ofBits .f32 0x358637BD#32 = (((8796093 : ℝ) / 2 ^ 43 : ℝ) : EReal) := by
  simp [Ideal.ofBits, Ideal.ieee, -EReal.coe_mul]; norm_num

/-- The upper clip bound, the float nearest `1 - 1e-6`: `16777199 / 2^24`. -/
theorem hi_eq : Ideal.ofBits .f32 0x3F7FFFEF#32 = (((16777199 : ℝ) / 2 ^ 24 : ℝ) : EReal) := by
  simp [Ideal.ofBits, Ideal.ieee, -EReal.coe_mul]; norm_num

/-- The fill of the masked entries, the float nearest `-1e30`: `-(13234890 · 2^76)`. -/
theorem fill_eq : Ideal.ofBits .f32 0xF149F2CA#32 = ((-(13234890 * 2 ^ 76 : ℝ) : ℝ) : EReal) := by
  simp [Ideal.ofBits, Ideal.ieee, -EReal.coe_mul]

/-- The threshold, half the fill: `-(13234890 · 2^75)`. -/
theorem thr_eq : Ideal.ofBits .f32 0xF0C9F2CA#32 = ((-(13234890 * 2 ^ 75 : ℝ) : ℝ) : EReal) := by
  simp [Ideal.ofBits, Ideal.ieee, -EReal.coe_mul]

/-- The pattern of `-∞`. -/
theorem ninf_eq : Ideal.ofBits .f32 0xFF800000#32 = ⊥ := by
  simp [Ideal.ofBits, Ideal.ieee]

/-- The pattern of `+0.0`. -/
theorem zero_eq : Ideal.ofBits .f32 0x00000000#32 = 0 := by
  simp [Ideal.ofBits, Ideal.ieee]

/-- The pattern of `1.0`. -/
theorem one_eq : Ideal.ofBits .f32 0x3F800000#32 = 1 := by
  simp [Ideal.ofBits, Ideal.ieee, -EReal.coe_mul]; norm_num

/-! ## The clipped logarithm is far above the threshold -/

/-- The logarithm of anything clipped to `[lo, hi]` exceeds the threshold: the clipped value is a real `r ≥ lo > 0`,
    and `log r ≥ 1 - 1 / r ≥ 1 - 2^43`. -/
theorem thr_lt_log_clip (s : EReal) :
    Ideal.ofBits .f32 0xF0C9F2CA#32
      < Ideal.log (min (Ideal.ofBits .f32 0x3F7FFFEF#32) (max (Ideal.ofBits .f32 0x358637BD#32) s)) := by
  have h1 : Ideal.ofBits .f32 0x358637BD#32 ≤ min (Ideal.ofBits .f32 0x3F7FFFEF#32) (max (Ideal.ofBits .f32 0x358637BD#32) s) := by
    refine le_min ?_ (le_max_left _ _)
    rw [lo_eq, hi_eq, EReal.coe_le_coe_iff]; norm_num
  have h2 : min (Ideal.ofBits .f32 0x3F7FFFEF#32) (max (Ideal.ofBits .f32 0x358637BD#32) s) ≤ Ideal.ofBits .f32 0x3F7FFFEF#32 :=
    min_le_left _ _
  generalize min (Ideal.ofBits .f32 0x3F7FFFEF#32) (max (Ideal.ofBits .f32 0x358637BD#32) s) = y at h1 h2
  rw [lo_eq] at h1
  rw [hi_eq] at h2
  rw [thr_eq]
  induction y using EReal.rec with
  | bot => exact absurd h1 (not_le.mpr (EReal.bot_lt_coe _))
  | top => exact absurd h2 (not_le.mpr (EReal.coe_lt_top _))
  | coe r =>
    have hr : (8796093 : ℝ) / 2 ^ 43 ≤ r := EReal.coe_le_coe_iff.mp h1
    have hpos : 0 < r := lt_of_lt_of_le (by norm_num) hr
    have hlog : 1 - r⁻¹ ≤ Real.log r := Real.one_sub_inv_le_log_of_pos hpos
    have hinv : r⁻¹ ≤ 2 ^ 43 := by
      rw [inv_le_comm₀ hpos (by norm_num)]
      refine le_trans ?_ hr
      rw [inv_le_comm₀ (by norm_num) (by norm_num)]
      norm_num
    show ((-(13234890 * 2 ^ 75 : ℝ) : ℝ) : EReal) < Ideal.log (r : EReal)
    have hl : Ideal.log (r : EReal) = ((Real.log r : ℝ) : EReal) := by
      show (if r ≤ 0 then (⊥ : EReal) else (Real.log r : EReal)) = _
      rw [if_neg (not_le.mpr hpos)]
    rw [hl, EReal.coe_lt_coe_iff]
    have : (-(13234890 * 2 ^ 75 : ℝ)) < 1 - 2 ^ 43 := by norm_num
    linarith

/-- The fill is not above the threshold. -/
theorem not_thr_lt_fill : ¬ Ideal.ofBits .f32 0xF0C9F2CA#32 < Ideal.ofBits .f32 0xF149F2CA#32 := by
  rw [thr_eq, fill_eq, EReal.coe_lt_coe_iff]; norm_num

/-! ## A row's maximum exceeds the threshold exactly when some entry of the row is unmasked -/

/-- The maximum (from `-∞`) of a masked family — `v k` where `P k`, the fill elsewhere — exceeds the threshold iff
    some `P k` holds, whenever every `v k` exceeds it. -/
theorem thr_lt_fold_max_iff {ι : Type} (s : Finset ι) (P : ι → Prop) [DecidablePred P] (v : ι → EReal)
    (hv : ∀ k, Ideal.ofBits .f32 0xF0C9F2CA#32 < v k) :
    Ideal.ofBits .f32 0xF0C9F2CA#32
        < s.fold max (Ideal.ofBits .f32 0xFF800000#32) (fun k => if P k then v k else Ideal.ofBits .f32 0xF149F2CA#32)
      ↔ ∃ k ∈ s, P k := by
  rw [Finset.lt_fold_max]
  constructor
  · rintro (h | ⟨k, hk, h⟩)
    · rw [ninf_eq] at h; exact absurd h (not_lt_bot)
    · by_cases hp : P k
      · exact ⟨k, hk, hp⟩
      · rw [if_neg hp] at h; exact absurd h not_thr_lt_fill
  · rintro ⟨k, hk, hp⟩
    exact Or.inr ⟨k, hk, by rw [if_pos hp]; exact hv k⟩

/-! ## The two readings of a positive label -/

/-- A 32-bit label is positive as a signed integer. -/
abbrev Pos (t : BitVec 32) : Prop := 0 < t.toInt

/-- The integer comparison "label > 0" answers 1 exactly at a positive label. -/
theorem cmpi_sgt_zero (t : BitVec 32) : IntOp.cmpi .sgt t 0#32 = 1#1 ↔ Pos t := by
  show BitVec.ofBool ((0#32).slt t) = 1#1 ↔ _
  rw [BitVec.slt, BitVec.toInt_zero]
  by_cases h : 0 < t.toInt <;> simp [h]

/-- The float comparison of the label read as a real against `+0.0` answers 1 exactly at a positive label. -/
theorem cmp_ogt_zero (t : BitVec 32) :
    Ideal.cmp .ogt (((t.toInt : ℝ) : ℝ) : EReal) (Ideal.ofBits .f32 0x00000000#32) = 1#1 ↔ Pos t := by
  rw [zero_eq]
  show BitVec.ofBool (decide ((0 : EReal) < ((t.toInt : ℝ) : EReal))) = 1#1 ↔ _
  have : ((0 : EReal) < ((t.toInt : ℝ) : EReal)) ↔ 0 < t.toInt := by
    rw [← EReal.coe_zero, EReal.coe_lt_coe_iff]; exact Int.cast_pos
  by_cases h : 0 < t.toInt <;> simp [this, h]

/-- A fold of "or" over one-bit words from 0 is 1 exactly when some word is 1. -/
theorem fold_ori_eq_one_iff {ι : Type} [DecidableEq ι] (s : Finset ι) (f : ι → BitVec 1)
    [Std.Commutative (IntOp.ori (w := 1))] [Std.Associative (IntOp.ori (w := 1))] :
    s.fold IntOp.ori 0#1 f = 1#1 ↔ ∃ k ∈ s, f k = 1#1 := by
  induction s using Finset.induction_on with
  | empty => simp
  | insert a s ha ih =>
    rw [Finset.fold_insert ha]
    have key : ∀ x y : BitVec 1, IntOp.ori x y = 1#1 ↔ x = 1#1 ∨ y = 1#1 := by decide
    rw [key, ih]
    constructor
    · rintro (h | ⟨k, hk, h⟩)
      · exact ⟨a, Finset.mem_insert_self _ _, h⟩
      · exact ⟨k, Finset.mem_insert_of_mem hk, h⟩
    · rintro ⟨k, hk, h⟩
      rcases Finset.mem_insert.mp hk with rfl | hk
      · exact Or.inl h
      · exact Or.inr ⟨k, hk, h⟩

/-! ## The loss of a row, and of the batch -/

/-- The logarithm of the clipped sigmoid. -/
def logp (x : EReal) : EReal :=
  Ideal.log (min (Ideal.ofBits .f32 0x3F7FFFEF#32) (max (Ideal.ofBits .f32 0x358637BD#32) (Ideal.logistic x)))

/-- The masked entry: `logp` at a positive label, the fill elsewhere. -/
def masked (x : EReal) (t : BitVec 32) : EReal := if Pos t then logp x else Ideal.ofBits .f32 0xF149F2CA#32

/-- The maximum of a masked row, from `-∞`. -/
def rowMax {n : ℕ} (x : Fin n → EReal) (t : Fin n → BitVec 32) : EReal :=
  (Finset.univ : Finset (Fin n)).fold max (Ideal.ofBits .f32 0xFF800000#32) (fun k => masked (x k) (t k))

/-- The loss of a row: minus the maximum when some label is positive, zero otherwise. (Whether some label is positive is
    decided classically: nothing ever searches the row.) -/
def rowLoss {n : ℕ} (x : Fin n → EReal) (t : Fin n → BitVec 32) : EReal :=
  @ite EReal (∃ k, Pos (t k)) (Classical.propDecidable _) (-(rowMax x t)) 0

/-- The maximum of a masked row exceeds the threshold exactly when the row has a positive label. -/
theorem thr_lt_rowMax_iff {n : ℕ} (x : Fin n → EReal) (t : Fin n → BitVec 32) :
    Ideal.ofBits .f32 0xF0C9F2CA#32 < rowMax x t ↔ ∃ k, Pos (t k) := by
  unfold rowMax masked
  rw [thr_lt_fold_max_iff Finset.univ (fun k => Pos (t k)) (fun k => logp (x k)) (fun k => thr_lt_log_clip _)]
  simp

/-- Any selection between minus the row maximum and zero whose condition holds exactly when some label of the row is
    positive is the row loss. -/
theorem ite_eq_rowLoss {n : ℕ} (x : Fin n → EReal) (t : Fin n → BitVec 32) (c : Prop) [Decidable c]
    (hc : c ↔ ∃ k, Pos (t k)) : (if c then -(rowMax x t) else 0) = rowLoss x t := by
  unfold rowLoss
  by_cases h : ∃ k, Pos (t k)
  · rw [if_pos (hc.mpr h), if_pos h]
  · rw [if_neg (fun h' => h (hc.mp h')), if_neg h]

/-- The thresholded form of the row loss is the row loss. -/
theorem thresholded_eq_rowLoss {n : ℕ} (x : Fin n → EReal) (t : Fin n → BitVec 32) :
    (if Ideal.ofBits .f32 0xF0C9F2CA#32 < rowMax x t then 0 - rowMax x t else 0) = rowLoss x t := by
  rw [zero_sub]
  exact ite_eq_rowLoss x t _ (thr_lt_rowMax_iff x t)

end Cert.RowLoss

end
-- ==== Proof.LibKeepdims.lean ====
/-
  What every row-wise reduction with kept dimensions needs, read at an index: a vector of `a` entries cast to
  a column `[a, 1]`; a column `[a, 1]` broadcast along a new second axis to `[a, b]`; and the sum and the
  maximum of the rows of an `[a, b]` matrix, at row `r`, as a sum and a fold of `max` over the `b` entries of
  that row.
-/
import Idealize.ShloMosaic.Lib.Pipeline.Value
import Idealize.ShloMosaic.Lib.ValueIdx
import Idealize.ShloMosaic.PureOps.Ideal.Laws

noncomputable section

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of an `[a, b]` matrix with coordinate `k` of the reduced second axis put back is `(r, k)`. -/
theorem lift_rows {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the second axis of an `[a, b]` matrix, at row `r`, is the sum of that row's `b` entries. -/
theorem multiReduction_add_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_rows h r k)

/-- The maximum over the second axis of an `[a, b]` matrix, at row `r`, is the fold of `max` from the
    accumulator's value over that row's `b` entries. -/
theorem multiReduction_maximumf_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f => Finset.fold max (Ideal.ofBits φ acc) f Finset.univ) (funext fun k => congrArg src (lift_rows h r k))

end Idealize.ShloMosaic.ValueIdx

end
-- ==== Proof.Payload.lean ====
/-
  The kernel body's one stored value, read at an index: row `p` of the block stores the loss of that row of the
  block — the thresholded form, which is the row loss — times the row's weight.
-/
import proofs.«161632_j34230889349773_1_alg».proof.Proof.Gen.KernelIdeal.Skeleton
import proofs.«161632_j34230889349773_1_alg».proof.Proof.LossSpec
import proofs.«161632_j34230889349773_1_alg».proof.Proof.LibKeepdims
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx Cert.RowLoss

/-- The masked block as the body spells it: where the label exceeds zero the logarithm of the clipped sigmoid of the
    score, elsewhere the fill. -/
abbrev maskedBlock (x0 : FVec Ideal S128x5000 .f32) (x1 : IVec S128x5000 32) : FVec Ideal S128x5000 .f32 :=
  select (cmpi .sgt x1 (broadcast S128x5000 0#32))
    (log (minimumf (broadcast S128x5000 (Scalar.ofBits (F := Ideal) .f32 0x3F7FFFEF#32))
      (maximumf (broadcast S128x5000 (Scalar.ofBits (F := Ideal) .f32 0x358637BD#32)) (logistic x0))))
    (broadcast S128x5000 (Scalar.ofBits (F := Ideal) .f32 0xF149F2CA#32))

/-- An entry of the masked block is the masked entry of the specification: the integer comparison of the label with
    zero selects between the clipped logarithm and the fill. -/
theorem masked_apply (x0 : FVec Ideal S128x5000 .f32) (x1 : IVec S128x5000 32) (p : Fin 128) (k : Fin 5000) :
    maskedBlock x0 x1 (ix2 p k) = masked (x0 (ix2 p k)) (x1 (ix2 p k)) := by
  show Scalar.select (IntOp.cmpi .sgt (x1 (ix2 p k)) 0#32)
      (Ideal.log (min (Ideal.ofBits .f32 0x3F7FFFEF#32) (max (Ideal.ofBits .f32 0x358637BD#32) (Ideal.logistic (x0 (ix2 p k))))))
      (Ideal.ofBits .f32 0xF149F2CA#32) = _
  unfold masked logp Scalar.select
  exact if_congr (cmpi_sgt_zero _) rfl rfl

/-- The row maximum kept as a column, at row `p`: the maximum from `-∞` of that row's 5000 entries. -/
theorem rowmax_column_apply (v : FVec Ideal S128x5000 .f32) (h : S128x5000.Reduces [1] S128) (hφ : FKind.Formats FTy.f32)
    (hacc : (0xFF800000#32 : BitVec FTy.f32.bits) = FKind.maximumf.neutral .f32 hφ) (hc : S128.ShapeCasts S128x1)
    (p : Fin 128) (u : Fin 1) :
    shapeCast S128x1 (multiReduction .maximumf [1] S128 v 0xFF800000#32 h hφ hacc) hc (ix2 p u)
      = (Finset.univ : Finset (Fin 5000)).fold max (Ideal.ofBits .f32 0xFF800000#32) (fun k => v (ix2 p k)) :=
  (shapeCast_a_a1_apply _ hc p u).trans (multiReduction_maximumf_rows_apply v 0xFF800000#32 h hφ hacc p)

/-- The column of the masked block's row maxima, at row `p`, is the row maximum of the specification. -/
theorem rowmax_masked_apply (x0 : FVec Ideal S128x5000 .f32) (x1 : IVec S128x5000 32) (h : S128x5000.Reduces [1] S128)
    (hφ : FKind.Formats FTy.f32) (hacc : (0xFF800000#32 : BitVec FTy.f32.bits) = FKind.maximumf.neutral .f32 hφ)
    (hc : S128.ShapeCasts S128x1) (p : Fin 128) (u : Fin 1) :
    shapeCast S128x1 (multiReduction .maximumf [1] S128 (maskedBlock x0 x1) 0xFF800000#32 h hφ hacc) hc (ix2 p u)
      = rowMax (fun k : Fin 5000 => x0 (ix2 p k)) (fun k : Fin 5000 => x1 (ix2 p k)) := by
  refine (rowmax_column_apply (maskedBlock x0 x1) h hφ hacc hc p u).trans ?_
  unfold rowMax
  exact congrArg (fun f => Finset.fold max (Ideal.ofBits .f32 0xFF800000#32) f Finset.univ)
    (funext fun k => masked_apply x0 x1 p k)

/-- "Greater than" on the extended reals answers 1 exactly when it holds. -/
theorem cmp_ogt_eq_one_iff (a b : EReal) : Ideal.cmp .ogt a b = 1#1 ↔ b < a := by
  show BitVec.ofBool (decide (b < a)) = 1#1 ↔ _
  by_cases h : b < a <;> simp [h]

/-- What the body does with the column `C` of row maxima, at row `p` where the column holds `M`: where the maximum
    exceeds the threshold, zero minus the maximum, and zero elsewhere; times the row's weight (the weights' block cast
    to its own shape). -/
theorem tail_apply (C x2 : FVec Ideal S128x1 .f32) (hcc : S128x1.ShapeCasts S128x1) (p : Fin 128) (u : Fin 1)
    (M : EReal) (hC : C (ix2 p u) = M) :
    mulf (select (cmpf .ogt C (broadcast S128x1 (Scalar.ofBits (F := Ideal) .f32 0xF0C9F2CA#32)))
        (subf (broadcast S128x1 (Scalar.ofBits (F := Ideal) .f32 0x00000000#32)) C)
        (broadcast S128x1 (Scalar.ofBits (F := Ideal) .f32 0x00000000#32)))
      (shapeCast S128x1 x2 hcc) (ix2 p u)
      = (if Ideal.ofBits .f32 0xF0C9F2CA#32 < M then 0 - M else 0) * x2 (ix2 p u) := by
  rw [shapeCast_self]
  show Scalar.select (Ideal.cmp .ogt (C (ix2 p u)) (Ideal.ofBits .f32 0xF0C9F2CA#32))
      (Ideal.ofBits .f32 0x00000000#32 - C (ix2 p u)) (Ideal.ofBits .f32 0x00000000#32) * x2 (ix2 p u) = _
  rw [zero_eq, hC]
  unfold Scalar.select
  exact congrArg (fun z => z * x2 (ix2 p u)) (if_congr (cmp_ogt_eq_one_iff _ _) rfl rfl)

/-- THE STORED VALUE at row `p` of the block: the row loss of the block's row `p` times that row's weight. -/
theorem pay_apply (x0 : Vec Ideal S128x5000 .f32) (x1 : Vec Ideal S128x5000 .i32) (x2 : Vec Ideal S128x1 .f32)
    (p : Fin 128) (u : Fin 1) :
    k0_pay1 (F := Ideal) x0 x1 x2 (ix2 p u)
      = rowLoss (fun k : Fin 5000 => x0 (ix2 p k)) (fun k : Fin 5000 => x1 (ix2 p k)) * x2 (ix2 p u) := by
  unfold k0_pay1
  dsimp only
  refine (tail_apply _ x2 shapeCasts_S128x1_S128x1 p u _
    (rowmax_masked_apply x0 x1 reduces_S128x5000_S128 (.inl rfl) rfl shapeCasts_S128_S128x1 p u)).trans ?_
  rw [thresholded_eq_rowLoss]

end Cert.KernelIdeal.Body

end
-- ==== Proof.BatchSpec.lean ====
/-
  The batch loss as one number of the three argument arrays: the weighted row losses summed over the 16384 rows (from
  `+0.0`) and divided by 16384. Both programs end holding this number; they differ in how the rows are laid out when
  summed (a column `[16384, 1]` summed over both axes against a vector `[16384]` summed over its one axis), which a sum
  in a commutative monoid does not see.
-/
import proofs.«161632_j34230889349773_1_alg».proof.Proof.LossSpec
import Idealize.ShloMosaic.Lib.ValueIdx

noncomputable section

namespace Cert.RowLoss

open Idealize.ShloMosaic Idealize.ShloMosaic.ValueIdx

/-- The loss of row `r` of the batch: the row loss of that row's 5000 scores and labels. -/
def lossOfRow (a0 : (⟨2, ![16384, 5000]⟩ : Shape).Idx → EReal) (a1 : (⟨2, ![16384, 5000]⟩ : Shape).Idx → BitVec 32)
    (r : Fin 16384) : EReal :=
  rowLoss (fun k : Fin 5000 => a0 (ix2 r k)) (fun k : Fin 5000 => a1 (ix2 r k))

/-- The batch loss: the mean over the rows of the row losses times the rows' weights, the sum taken from `+0.0` and
    the divisor the float `16384.0`. -/
def batchLoss (a0 : (⟨2, ![16384, 5000]⟩ : Shape).Idx → EReal) (a1 : (⟨2, ![16384, 5000]⟩ : Shape).Idx → BitVec 32)
    (w : (⟨1, ![16384]⟩ : Shape).Idx → EReal) : EReal :=
  Ideal.div (Ideal.ofBits .f32 0x00000000#32 + ∑ r : Fin 16384, lossOfRow a0 a1 r * w (ix1 r))
    (Ideal.ofBits .f32 0x46800000#32)

/-- A sum over the indices of a vector is the sum over its one coordinate. -/
theorem sum_idx1 {M : Type*} [AddCommMonoid M] {n : ℕ} (f : (⟨1, ![n]⟩ : Shape).Idx → M) :
    ∑ j, f j = ∑ r : Fin n, f (ix1 r) := by
  let e : Fin n ≃ (⟨1, ![n]⟩ : Shape).Idx :=
    ⟨ix1, fun j => j 0, fun _ => rfl, fun j => (eq_ix1 j).symm⟩
  exact (Fintype.sum_equiv e (fun r => f (ix1 r)) f (fun _ => rfl)).symm

/-- A sum over the indices of a column `[n, 1]` is the sum over its rows. -/
theorem sum_idx_col {M : Type*} [AddCommMonoid M] {n : ℕ} (f : (⟨2, ![n, 1]⟩ : Shape).Idx → M) :
    ∑ j, f j = ∑ r : Fin n, f (ix2 r (0 : Fin 1)) := by
  rw [sum_idx2]
  exact Finset.sum_congr rfl fun r _ => Fin.sum_univ_one _

end Cert.RowLoss

end
-- ==== Proof.KernelLoss.lean ====
/-
  What the kernel's program ends holding. Grid point `t` reads rows `128 t … 128 t + 127` of the scores, of the labels
  and of the weights' column, and writes back the same rows of the result column: each row's loss times its weight. The
  128 blocks tile the 16384 rows, so the column ends as one function of the arguments, and the host's sum over it,
  divided by 16384, is the batch loss.
-/
import proofs.«161632_j34230889349773_1_alg».proof.Proof.Gen.KernelIdeal.Frame
import proofs.«161632_j34230889349773_1_alg».proof.Proof.Payload
import proofs.«161632_j34230889349773_1_alg».proof.Proof.BatchSpec
import Idealize.ShloMosaic.Lib.Pipeline.Value
import Idealize.ShloMosaic.Lib.StableHlo.Run
import Idealize.ShloMosaic.Lib.IdealHost
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Loss

open Cert.KernelIdeal Cert.KernelIdeal.Gen Cert.KernelIdeal.Body Idealize.ShloMosaic.ValueIdx Cert.RowLoss

variable (m : (ℓ : Loc nD τ sig) → Buf (Elt Ideal) ℓ) (ρ : Dev nD → PrngReg)

theorem hz : (![0, 0] : Fin 2 → Nat) = fun _ => 0 := funext fun a => by fin_cases a <;> rfl

/-- The column of weighted row losses: at row `r`, that row's loss times the weight column's entry. -/
def lossColumn (a0 : S16384x5000.Idx → EReal) (a1 : S16384x5000.Idx → BitVec 32) (w : S16384x1.Idx → EReal) :
    S16384x1.Idx → EReal :=
  fun i => lossOfRow a0 a1 (⟨(i 0).val, idx2_lt0 i⟩ : Fin 16384) * w i

theorem lossColumn_apply (a0 : S16384x5000.Idx → EReal) (a1 : S16384x5000.Idx → BitVec 32) (w : S16384x1.Idx → EReal)
    (r : Fin 16384) (u : Fin 1) : lossColumn a0 a1 w (ix2 r u) = lossOfRow a0 a1 r * w (ix2 r u) := rfl

/-- The four index maps, decided over the grid: every window's block at point `t` is block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The scores' block at point `t` is rows `128 t + p` of the scores. -/
theorem iblk0_apply (c : Dev nD) (t : Fin cfg0.N) (p : Fin 128) (k : Fin 5000) (r : Fin 16384)
    (hr : r.val = t.val * 128 + p.val) :
    (iblk m c 0 t : Vec Ideal S128x5000 .f32) (ix2 p k) = (V m c main_arg0 : S16384x5000.Idx → EReal) (ix2 r k) := by
  obtain ⟨e0, e1, -⟩ := idx_facts t
  unfold iblk
  rw [View.read_apply]
  show (V m c main_arg0 : S16384x5000.Idx → EReal) _ = (V m c main_arg0 : S16384x5000.Idx → EReal) _
  refine congrArg (V m c main_arg0 : S16384x5000.Idx → EReal) ?_
  funext a
  apply Fin.ext
  match a with
  | ⟨0, _⟩ => show win0_0.index t (0 : Fin 2) * 128 + 1 * p.val = r.val; rw [e0, hr]; omega
  | ⟨1, _⟩ => show win0_0.index t (1 : Fin 2) * 5000 + 1 * k.val = k.val; rw [e1]; omega

/-- The labels' block at point `t` is rows `128 t + p` of the labels. -/
theorem iblk1_apply (c : Dev nD) (t : Fin cfg0.N) (p : Fin 128) (k : Fin 5000) (r : Fin 16384)
    (hr : r.val = t.val * 128 + p.val) :
    (iblk m c 1 t : Vec Ideal S128x5000 .i32) (ix2 p k) = (V m c main_arg1 : S16384x5000.Idx → BitVec 32) (ix2 r k) := by
  obtain ⟨-, -, e0, e1, -⟩ := idx_facts t
  unfold iblk
  rw [View.read_apply]
  show (V m c main_arg1 : S16384x5000.Idx → BitVec 32) _ = (V m c main_arg1 : S16384x5000.Idx → BitVec 32) _
  refine congrArg (V m c main_arg1 : S16384x5000.Idx → BitVec 32) ?_
  funext a
  apply Fin.ext
  match a with
  | ⟨0, _⟩ => show win0_1.index t (0 : Fin 2) * 128 + 1 * p.val = r.val; rw [e0, hr]; omega
  | ⟨1, _⟩ => show win0_1.index t (1 : Fin 2) * 5000 + 1 * k.val = k.val; rw [e1]; omega

/-- The weights' block at point `t` is rows `128 t + p` of the weight column. -/
theorem iblk2_apply (c : Dev nD) (t : Fin cfg0.N) (p : Fin 128) (u : Fin 1) (r : Fin 16384)
    (hr : r.val = t.val * 128 + p.val) :
    (iblk m c 2 t : Vec Ideal S128x1 .f32) (ix2 p u) = (V m c main_v0 : S16384x1.Idx → EReal) (ix2 r u) := by
  obtain ⟨-, -, -, -, e0, e1, -⟩ := idx_facts t
  unfold iblk
  rw [View.read_apply]
  show (V m c main_v0 : S16384x1.Idx → EReal) _ = (V m c main_v0 : S16384x1.Idx → EReal) _
  refine congrArg (V m c main_v0 : S16384x1.Idx → EReal) ?_
  funext a
  apply Fin.ext
  match a with
  | ⟨0, _⟩ => show win0_2.index t (0 : Fin 2) * 128 + 1 * p.val = r.val; rw [e0, hr]; omega
  | ⟨1, _⟩ => show win0_2.index t (1 : Fin 2) * 1 + 1 * u.val = u.val; rw [e1]; omega

/-- WHAT POINT `t` WRITES BACK is block `t` of the column of weighted row losses of the arrays as the region finds them. -/
theorem flushed_eq (c : Dev nD) (t : Fin cfg0.N) (_ : (cfg0.win 3).flush t = true) :
    (dats m 0 c).flushed 3 t
      = ((cfg0.win 3).blk t).view.read (Elt Ideal) (lossColumn (V m c main_arg0) (V m c main_arg1) (V m c main_v0)) := by
  show (cfg0.win 3).cut (grid0.coords t) ((dats m 0 c).after 3 t) = _
  rw [after0_3]
  unfold out0_3
  rw [View.canon_unit_zero hz]
  simp only [View.ld_unit_zero (S := S128x5000) hz, View.ld_unit_zero (S := S128x1) hz]
  funext j
  have ht : t.val < 128 := lt_of_lt_of_eq t.isLt N_0
  obtain ⟨-, -, -, -, -, -, e6, e7⟩ := idx_facts t
  obtain ⟨p, hpv⟩ : ∃ p : Fin 128, p.val = (j 0).val := ⟨⟨(j 0).val, (j 0).isLt⟩, rfl⟩
  obtain ⟨u, huv⟩ : ∃ u : Fin 1, u.val = (j 1).val := ⟨⟨(j 1).val, (j 1).isLt⟩, rfl⟩
  obtain ⟨r, hrv⟩ : ∃ r : Fin 16384, r.val = t.val * 128 + p.val :=
    ⟨⟨t.val * 128 + p.val, by have := p.isLt; omega⟩, rfl⟩
  have hj : (j : S128x1.Idx) = ix2 p u := by
    funext a
    apply Fin.ext
    match a with
    | ⟨0, _⟩ => exact hpv.symm
    | ⟨1, _⟩ => exact huv.symm
  have hemb : (((cfg0.win 3).blk t).view.emb j : S16384x1.Idx) = ix2 r u := by
    funext a
    apply Fin.ext
    match a with
    | ⟨0, _⟩ => show win0_3.index t (0 : Fin 2) * 128 + 1 * (j 0).val = r.val; rw [e6, hrv, hpv]; omega
    | ⟨1, _⟩ => show win0_3.index t (1 : Fin 2) * 1 + 1 * (j 1).val = u.val; rw [e7, huv]; omega
  show k0_pay1 (F := Ideal) (iblk m c 0 t) (iblk m c 1 t) (iblk m c 2 t) j
    = lossColumn (V m c main_arg0) (V m c main_arg1) (V m c main_v0) (((cfg0.win 3).blk t).view.emb j)
  rw [hemb, lossColumn_apply]
  refine (congrArg (k0_pay1 (F := Ideal) (iblk m c 0 t) (iblk m c 1 t) (iblk m c 2 t)) hj).trans ?_
  refine (pay_apply (iblk m c 0 t) (iblk m c 1 t) (iblk m c 2 t) p u).trans ?_
  unfold lossOfRow
  rw [iblk2_apply m c t p u r hrv]
  refine congrArg (fun z => z * (V m c main_v0 : S16384x1.Idx → EReal) (ix2 r u)) ?_
  exact congrArg₂ rowLoss (funext fun k => iblk0_apply m c t p k r hrv) (funext fun k => iblk1_apply m c t p k r hrv)

/-- Every row of the result column is in the block of the point that owns it: row `i` is in block `i / 128`. -/
theorem cover (c : Dev nD) (i : S16384x1.Idx) :
    ∃ t : Fin cfg0.N, (cfg0.win 3).flush t = true ∧ i ∈ ((cfg0.win 3).blk t).view.set := by
  have hi0 : (i 0).val < 16384 := (i 0).isLt
  have hi1 : (i 1).val < 1 := (i 1).isLt
  obtain ⟨t, htv⟩ : ∃ t : Fin cfg0.N, t.val = (i 0).val / 128 :=
    ⟨⟨(i 0).val / 128, lt_of_lt_of_eq (by omega) N_0.symm⟩, rfl⟩
  obtain ⟨-, -, -, -, -, -, e6, e7⟩ := idx_facts t
  refine ⟨t, flush0_3 t, ?_⟩
  show i ∈ ((View.whole main_v1).slice (win0_3.rect t)).set
  rw [View.set_slice_whole, Rect.mem_set_unit]
  intro a
  match a with
  | ⟨0, _⟩ =>
    show win0_3.index t (0 : Fin 2) * 128 ≤ (i 0).val ∧ (i 0).val < win0_3.index t (0 : Fin 2) * 128 + 128
    rw [e6, htv]; omega
  | ⟨1, _⟩ =>
    show win0_3.index t (1 : Fin 2) * 1 ≤ (i 1).val ∧ (i 1).val < win0_3.index t (1 : Fin 2) * 1 + 1
    rw [e7]; omega

/-- THE RESULT COLUMN after the run: the column of weighted row losses of the arrays as the region finds them. -/
theorem final (c : Dev nD) :
    (dats m 0 c).arrAt 3 cfg0.N = lossColumn (V m c main_arg0) (V m c main_arg1) (V m c main_v0) :=
  (dats m 0 c).arrAt_eq_of_cover 3 (lossColumn (V m c main_arg0) (V m c main_arg1) (V m c main_v0))
    (flushed_eq m c) (cover c)

/-- The weight column the region finds is the weights reshaped: row `r` holds weight `r`. -/
theorem V_weights (c : Dev nD) (r : Fin 16384) (u : Fin 1) :
    (V m c main_v0 : S16384x1.Idx → EReal) (ix2 r u) = (m ((c : Thread nD τ).loc main_arg2) : S16384.Idx → EReal) (ix1 r) := by
  have e : (V m c main_v0 : S16384x1.Idx → EReal)
      = shapeCast S16384x1 (m ((c : Thread nD τ).loc main_arg2) : S16384.Idx → EReal) shapeCasts_S16384_S16384x1 := by
    show StableHlo.after hostOps0 (fun b => m (c, b)) (Proc.devRef .tc main_v0) = _
    after_results
    rfl
  rw [e]
  exact shapeCast_a_a1_apply _ _ r u

/-- THE PROGRAM'S RESULT: the host's sum of the result column, divided by 16384, is the batch loss of the arguments. -/
theorem tail_eq (c : Dev nD) :
    Pipeline.afterTail₀ cfgs (dats m) 0 (V0 m) [hostOps1] c main_v3
      = fun _ => batchLoss (m ((c : Thread nD τ).loc main_arg0)) (m ((c : Thread nD τ).loc main_arg1))
          (m ((c : Thread nD τ).loc main_arg2)) := by
  unfold Pipeline.afterTail₀
  show StableHlo.after hostOps1 _ (Proc.devRef .tc main_v3) = _
  after_results
  have hA : Pipeline.withArrays (cfgs 0).spec c (V0 m c) (fun w => (dats m 0 c).arrAt w (cfgs 0).N) (Proc.tc.devRef main_v1)
      = lossColumn (V m c main_arg0) (V m c main_arg1) (V m c main_v0) :=
    (Pipeline.withArrays_arr spec0 launch0.win.arr_inj c _ _ 3).trans (final m c)
  rw [hA, V_main_arg0 m c, V_main_arg1 m c]
  funext i
  show Ideal.div (Ideal.hostReduceAdd reducesTo_S16384x1_S_d0_1
      (lossColumn (m ((c : Thread nD τ).loc main_arg0)) (m ((c : Thread nD τ).loc main_arg1)) (V m c main_v0))
      (Ideal.ofBits .f32 0x00000000#32) i) (Ideal.ofBits .f32 0x46800000#32) = _
  rw [Ideal.hostReduceAdd_total reducesTo_S16384x1_S_d0_1 (fun b => b.elim0), sum_idx_col]
  unfold batchLoss
  refine congrArg (fun s => Ideal.div (Ideal.ofBits .f32 0x00000000#32 + s) (Ideal.ofBits .f32 0x46800000#32)) ?_
  exact Finset.sum_congr rfl fun r _ => by rw [lossColumn_apply, V_weights]

/-- The run, read: every weakly fair execution ends with the result at the batch loss of the arguments, and the
    arguments unchanged. -/
theorem run : θ_run defs (onTc (τ := τ) (main (F := Ideal))) ⟨m, fun _ => 0, ρ⟩ fun r => ∀ c : Dev nD,
      r.2.mem ((c.tc : Thread nD τ).loc main_v3)
        = (fun _ => batchLoss (m ((c.tc : Thread nD τ).loc main_arg0)) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v3 (Pipeline.mem_restRefs_of main_v3 (by decide) (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.KernelIdeal.Loss

end
-- ==== Proof.RefLoss.lean ====
/-
  The reference's result is the batch loss: its one number, read operation by operation at an index, is the mean of the
  weighted row losses. Per entry, `1 / (1 + e^(-x))` spelt with the host's operations is the sigmoid, and the float
  comparison of the label read as a real against `+0.0` holds exactly at a positive label; per row, the host's reduction
  by maximum over the second axis is the row maximum and its reduction by "or" says whether some label is positive.
-/
import proofs.«161632_j34230889349773_1_alg».proof.Proof.RefRead
import proofs.«161632_j34230889349773_1_alg».proof.Proof.BatchSpec
import proofs.«161632_j34230889349773_1_alg».proof.Proof.LibKeepdims
import Idealize.ShloMosaic.PureOps.Reduce

noncomputable section

namespace Cert.ReferenceIdeal.Loss

open Cert.ReferenceIdeal Cert.ReferenceIdeal.Gen Cert.ReferenceIdeal.RefRead Idealize.ShloMosaic Idealize.ShloMosaic.ValueIdx Cert.RowLoss

variable (x0 : (⟨S16384x5000, .f32⟩ : BufTy).Contents (Elt Ideal)) (x1 : (⟨S16384x5000, .i32⟩ : BufTy).Contents (Elt Ideal))
  (x2 : (⟨S16384, .f32⟩ : BufTy).Contents (Elt Ideal))

theorem hred : S16384x5000.Reduces [1] S16384 := by decide

/-- The comparison "label > 0", at an entry. -/
theorem v10_apply (r : Fin 16384) (k : Fin 5000) :
    val_main_v10 (F := Ideal) x1 (ix2 r k) = 1#1 ↔ Pos (x1 (ix2 r k)) := by
  simp only [val_main_v10_apply, val_main_v9_apply, val_main_cst_3_apply, val_main_v8_apply]
  exact cmp_ogt_zero _

/-- The masked array, at an entry, is the masked entry of the specification. -/
theorem v11_apply (r : Fin 16384) (k : Fin 5000) :
    val_main_v11 (F := Ideal) x0 x1 (ix2 r k) = masked (x0 (ix2 r k)) (x1 (ix2 r k)) := by
  simp only [val_main_v11_apply, val_main_v10_apply, val_main_v9_apply, val_main_cst_3_apply, val_main_v8_apply,
    val_main_v7_apply, val_main_v6_apply, val_main_call0_v4_apply, val_main_call0_v3_apply, val_main_cst_2_apply,
    val_main_call0_v2_apply, val_main_call0_v1_apply, val_main_call0_v0_apply, val_main_cst_1_apply, val_main_v5_apply,
    val_main_v4_apply, val_main_cst_0_apply, val_main_v3_apply, val_main_v2_apply, val_main_cst_apply, val_main_v1_apply,
    val_main_v0_apply, val_main_call1_v1_apply, val_main_call1_v0_apply, val_main_cst_4_apply]
  show Scalar.select (Ideal.cmp .ogt ((((x1 (ix2 r k)).toInt : ℝ) : ℝ) : EReal) (Ideal.ofBits .f32 0x00000000#32))
      (Ideal.log (min (Ideal.ofBits .f32 0x3F7FFFEF#32) (max (Ideal.ofBits .f32 0x358637BD#32)
        (Ideal.div (Ideal.ofBits .f32 0x3F800000#32) (Ideal.ofBits .f32 0x3F800000#32 + Ideal.exp (-(x0 (ix2 r k))))))))
      (Ideal.ofBits .f32 0xF149F2CA#32) = _
  rw [one_eq]
  unfold masked logp Ideal.logistic Scalar.select
  exact if_congr (cmp_ogt_zero _) rfl rfl

/-- The host's maximum over the second axis, at row `r`, is the row maximum of the specification. -/
theorem v12_apply (r : Fin 16384) :
    val_main_v12 (F := Ideal) x0 x1 (ix1 r) = rowMax (fun k : Fin 5000 => x0 (ix2 r k)) (fun k : Fin 5000 => x1 (ix2 r k)) := by
  unfold val_main_v12
  refine (Host.reduce_eq_fold_single (FloatOps.maximumf (F := Ideal) (φ := .f32)) (val_main_v11 (F := Ideal) x0 x1)
    (val_main_cst_5 (F := Ideal)) reducesTo_S16384x5000_S16384_d1 hred h_S_ (ix1 r)).trans ?_
  unfold rowMax
  show Finset.fold max (Ideal.ofBits .f32 0xFF800000#32)
    (fun k : Fin 5000 => val_main_v11 (F := Ideal) x0 x1 (hred.lift (ix1 r) k)) Finset.univ = _
  refine congrArg (fun f => Finset.fold max (Ideal.ofBits .f32 0xFF800000#32) f Finset.univ) (funext fun k => ?_)
  rw [lift_rows hred r k]
  exact v11_apply x0 x1 r k

/-- The host's "or" over the second axis, at row `r`, is 1 exactly when some label of the row is positive. -/
theorem v13_apply (r : Fin 16384) :
    val_main_v13 (F := Ideal) x1 (ix1 r) = 1#1 ↔ ∃ k : Fin 5000, Pos (x1 (ix2 r k)) := by
  unfold val_main_v13
  rw [Host.reduce_eq_fold_single (IntOp.ori (w := 1)) (val_main_v10 (F := Ideal) x1)
    (val_main_c (F := Ideal)) reducesTo_S16384x5000_S16384_d1 hred h_S_ (ix1 r)]
  show Finset.fold IntOp.ori 0#1 (fun k : Fin 5000 => val_main_v10 (F := Ideal) x1 (hred.lift (ix1 r) k)) Finset.univ = 1#1 ↔ _
  rw [fold_ori_eq_one_iff]
  simp only [Finset.mem_univ, true_and]
  refine exists_congr fun k => ?_
  rw [lift_rows hred r k]
  exact v10_apply x1 r k

/-- The weighted loss of row `r`, as the reference computes it. -/
theorem v16_apply (r : Fin 16384) :
    val_main_v16 (F := Ideal) x0 x1 x2 (ix1 r) = lossOfRow x0 x1 r * x2 (ix1 r) := by
  rw [val_main_v16_apply]
  show val_main_v15 (F := Ideal) x0 x1 (ix1 r) * x2 (ix1 r) = _
  refine congrArg (fun z => z * x2 (ix1 r)) ?_
  rw [val_main_v15_apply, val_main_v14_apply, val_main_call2_v1_apply, val_main_call2_v0_apply, val_main_cst_6_apply]
  show Scalar.select (val_main_v13 (F := Ideal) x1 (ix1 r)) (-(val_main_v12 (F := Ideal) x0 x1 (ix1 r)))
    (Ideal.ofBits .f32 0x00000000#32) = _
  rw [v12_apply, zero_eq]
  unfold lossOfRow Scalar.select
  exact ite_eq_rowLoss _ _ _ (v13_apply x1 r)

/-- THE REFERENCE'S RESULT is the batch loss. -/
theorem result_eq : val_main_v18 (F := Ideal) x0 x1 x2 = fun _ => batchLoss x0 x1 x2 := by
  funext i
  rw [val_main_v18_apply, val_main_v17_apply, val_main_cst_7_apply, val_main_cst_8_apply, sum_idx1]
  show Ideal.div (Ideal.ofBits .f32 0x00000000#32 + ∑ r : Fin 16384, val_main_v16 (F := Ideal) x0 x1 x2 (ix1 r))
    (Ideal.ofBits .f32 0x46800000#32) = _
  unfold batchLoss
  rw [Finset.sum_congr rfl fun r _ => v16_apply x0 x1 x2 r]

end Cert.ReferenceIdeal.Loss

end
-- ==== Proof.lean ====
/-
  The sigmoid loss of a batch, kernel against reference, on the extended reals.

  Both programs compute, for each of 16384 rows of 5000 scores `x` and integer labels `t`, the maximum `M` over the row
  of `log (clip (sigmoid x))` at the positive labels and of a large negative fill (about `-1e30`) elsewhere, turn it into
  the row's loss, weight it, and average over the rows. The reference's row loss is `-M` when some label of the row is
  positive and `0` otherwise. The kernel does not look at the labels a second time: its row loss is `0 - M` when `M`
  exceeds half the fill and `0` otherwise. The two agree because the clipped sigmoid is at least `lo ≈ 1e-6`, so each
  logarithm is at least `1 - 1 / lo > -2^43`, far above half the fill, while the fill itself and the `-∞` the maximum
  starts from are not above it: `M` exceeds the threshold exactly when a positive label contributed a logarithm. No
  finiteness of the inputs is used: the clip makes the argument of the logarithm a real between `lo` and `hi` whatever
  the score, and the weights enter both sides by the same product.

  The kernel works on 128 blocks of 128 rows, each block's rows written back to the same rows of a `[16384, 1]` column
  which the host then sums over both axes; the reference sums a `[16384]` vector. Either way it is the sum over the rows,
  taken from `+0.0` and divided by the float `16384.0`.

  The kernel's sigmoid is one operation and the reference's is `1 / (1 + e^(-x))` spelt out; on the extended reals these
  are one function. The kernel compares the integer label with zero, the reference compares the label read as a real
  with `+0.0`; both hold exactly at a positive label.

  The three frames are the generated frame runs (the reference's is its run with the result dropped); the idealized
  kernel is the kernel's own text read on the extended reals, so nothing is owed for it.
-/
import proofs.«161632_j34230889349773_1_alg».proof.Defs
import proofs.«161632_j34230889349773_1_alg».proof.Proof.Gen.Kernel
import proofs.«161632_j34230889349773_1_alg».proof.Proof.Gen.Kernel.Skeleton
import proofs.«161632_j34230889349773_1_alg».proof.Proof.Gen.Kernel.Launch
import proofs.«161632_j34230889349773_1_alg».proof.Proof.Gen.Kernel.Points
import proofs.«161632_j34230889349773_1_alg».proof.Proof.Gen.Kernel.Frame
import proofs.«161632_j34230889349773_1_alg».proof.Proof.Gen.KernelIdeal
import proofs.«161632_j34230889349773_1_alg».proof.Proof.Gen.KernelIdeal.Skeleton
import proofs.«161632_j34230889349773_1_alg».proof.Proof.Gen.KernelIdeal.Launch
import proofs.«161632_j34230889349773_1_alg».proof.Proof.Gen.KernelIdeal.Points
import proofs.«161632_j34230889349773_1_alg».proof.Proof.Gen.KernelIdeal.Frame
import proofs.«161632_j34230889349773_1_alg».proof.Proof.Gen.ReferenceIdeal
import proofs.«161632_j34230889349773_1_alg».proof.Proof.Gen.Pre_finite_inputs
import proofs.«161632_j34230889349773_1_alg».proof.Proof.KernelLoss
import proofs.«161632_j34230889349773_1_alg».proof.Proof.RefLoss
import Idealize.ShloMosaic.Adequacy
import Idealize.ShloMosaic.Init

noncomputable section

namespace Cert.Proof

open Idealize.ShloMosaic Idealize.ShloMosaic.TcCoe Idealize.SL.Sem

/-- The kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealized kernel is the kernel's own text: no rewrite to account for. -/
theorem preserves : Cert.preserves_Kernel_KernelIdeal := trivial

/-- From memories agreeing on the arguments both programs end at the batch loss of the arguments. -/
theorem algebraic : Cert.algebraic_KernelIdeal_ReferenceIdeal := by
  intro m ρ m' ρ' _ hagree
  refine ⟨fun c => fun _ => Cert.RowLoss.batchLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Loss.run m ρ, ?_⟩
  refine (θ_run Cert.ReferenceIdeal.defs _ _).mono (fun _ h c => ⟨(h c).1.trans ?_, (h c).2⟩)
    (Cert.ReferenceIdeal.RefValue.run (F := Ideal) m' ρ')
  rw [Cert.ReferenceIdeal.RefRead.val_main_v18_eq, Cert.ReferenceIdeal.Loss.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
